-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S64x128, .f32⟩
  | .local _ .vmem, ⟨18, _⟩ => ⟨S64, .f32⟩
  | .local _ .vmem, ⟨19, _⟩ => ⟨S64x128, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  dot_S5000x128_S64x128_S5000x64_1_1_0_0_n_n_wf : DotDims.WF S5000x128 S64x128 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S128x64, .f32⟩
  | .hbm, ⟨79, _⟩ => ⟨S100000x64, .f32⟩
  | .hbm, ⟨80, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageRun.lean ====
/-
  The idealized kernel program's run with its result named.

  The program is four stretches in order: host operations, the first layer's grid of 20 blocks, host operations,
  the second layer's grid of 20 blocks. The contents of the buffers at the boundaries are W0 (launch), W1, W2, W3
  and W4 (return), each obtained from the one before by the host operations' values or by the grid's write-backs.
  Every weakly fair execution terminates without a fault, and at the end every buffer that outlives the grids
  holds its W4 contents: in particular the result buffer, and the eight argument buffers, which nothing writes.
  The run is the library's run of a sequence of host stretches and grids, applied to the program's stretches and
  to each grid's body; what is read off the final state here is the result buffer beside the arguments.
-/
import proofs.«123293_j13305808683303_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at its contents
    W4 after the second grid, and the argument buffers end as launched. -/
theorem run : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer after the second grid is the second grid's output array after its 20 write-backs. -/
theorem result_eq (c : Dev nD) : W4 m ρ c (Proc.devRef .tc main_v34) = (dat1 (V3 m ρ) c).arrAt 6 cfg1.N :=
  W4_arr m ρ c 6

end Cert.KernelIdeal.Whole

end
-- ==== Proof.SageSpec.lean ====
/-
  One layer of mean aggregation, entry by entry, on the extended reals.

  A layer takes the neighbour sums A (one row of 128 features per node), the nodes' own features X, two weight
  matrices Wl, Wr (one row of 128 weights per output feature) and a bias b. The entry for node r and output
  feature q is
      ( Σ_k  mean(r, k) · Wl(q, k)  +  b(q) )  +  Σ_k  X(r, k) · Wr(q, k),
  where mean(r, k) is the neighbour sum A(r, k) scaled by the node's clamped in-degree d(r) = max(count(r), 1).
  The scaling is written in two ways: as a product with the reciprocal 1/d(r), kept in a column with one entry
  per node ('entryMul'), and as a quotient by d(r) ('entryDiv'). The two agree on every extended real A(r, k),
  finite or not: d(r) is at least 1, hence not 0, so the quotient a / d(r) is a · d(r)⁻¹ and the reciprocal
  1 / d(r) is 1 · d(r)⁻¹ = d(r)⁻¹ ('mul_recip'). Nothing else distinguishes the two forms: the sums run over the
  same 128 terms in the same grouping.
-/
import Idealize.ShloMosaic.PureOps.Ideal.Laws
import Idealize.ShloMosaic.Lib.ValueIdx
import Idealize.ShloMosaic.Lib.IdealHost

noncomputable section

namespace Sage

open Idealize.ShloMosaic Idealize.ShloMosaic.ValueIdx

/-- The word of the float 1.0. -/
abbrev oneW : BitVec 32 := 0x3F800000#32
/-- The word of the float 0.0. -/
abbrev zeroW : BitVec 32 := 0x00000000#32

/-- A product with the reciprocal of a number clamped below at 1 is the quotient by that number, for every
    extended real a and s: max s 1 is not 0, so both sides are a · (max s 1)⁻¹. -/
theorem mul_recip (a s : EReal) :
    a * Ideal.div (Ideal.ofBits .f32 oneW) (max s (Ideal.ofBits .f32 oneW))
      = Ideal.div a (max s (Ideal.ofBits .f32 oneW)) := by
  rw [Ideal.ofBits_one_f32]
  have hne : max s 1 ≠ 0 := ne_of_gt (lt_of_lt_of_le zero_lt_one (le_max_right s 1))
  unfold Ideal.div
  rw [if_neg hne, if_neg hne, one_mul]

variable {n o : ℕ}

/-- The layer's entry (r, q) with the mean taken as a product with the column inv of reciprocals. -/
def entryMul (A X : (⟨2, ![n, 128]⟩ : Shape).Idx → EReal) (inv : (⟨2, ![n, 1]⟩ : Shape).Idx → EReal)
    (Wl Wr : (⟨2, ![o, 128]⟩ : Shape).Idx → EReal) (b : (⟨1, ![o]⟩ : Shape).Idx → EReal) (r : Fin n) (q : Fin o) : EReal :=
  ((∑ k : Fin 128, (A (ix2 r k) * inv (ix2 r (0 : Fin 1))) * Wl (ix2 q k)) + b (ix1 q))
    + ∑ k : Fin 128, X (ix2 r k) * Wr (ix2 q k)

/-- The layer's entry (r, q) with the mean taken as a quotient by the clamped in-degree d. -/
def entryDiv (A X : (⟨2, ![n, 128]⟩ : Shape).Idx → EReal) (d : (⟨1, ![n]⟩ : Shape).Idx → EReal)
    (Wl Wr : (⟨2, ![o, 128]⟩ : Shape).Idx → EReal) (b : (⟨1, ![o]⟩ : Shape).Idx → EReal) (r : Fin n) (q : Fin o) : EReal :=
  ((∑ k : Fin 128, Ideal.div (A (ix2 r k)) (d (ix1 r)) * Wl (ix2 q k)) + b (ix1 q))
    + ∑ k : Fin 128, X (ix2 r k) * Wr (ix2 q k)

/-- When the column holds 1 / max(s, 1) and the in-degree is max(s, 1) for the same count s, the two forms of
    the entry are equal: term by term of the first sum by 'mul_recip'. -/
theorem entryMul_eq_entryDiv (A X : (⟨2, ![n, 128]⟩ : Shape).Idx → EReal) (inv : (⟨2, ![n, 1]⟩ : Shape).Idx → EReal)
    (d s : (⟨1, ![n]⟩ : Shape).Idx → EReal)
    (Wl Wr : (⟨2, ![o, 128]⟩ : Shape).Idx → EReal) (b : (⟨1, ![o]⟩ : Shape).Idx → EReal) (r : Fin n) (q : Fin o)
    (hinv : inv (ix2 r (0 : Fin 1)) = Ideal.div (Ideal.ofBits .f32 oneW) (max (s (ix1 r)) (Ideal.ofBits .f32 oneW)))
    (hd : d (ix1 r) = max (s (ix1 r)) (Ideal.ofBits .f32 oneW)) :
    entryMul A X inv Wl Wr b r q = entryDiv A X d Wl Wr b r q := by
  unfold entryMul entryDiv
  rw [hinv, hd]
  refine congrArg (· + _) (congrArg (· + _) (Finset.sum_congr rfl fun k _ => ?_))
  rw [mul_recip]

/-- The entry computed from blocks is the entry computed from whole arrays, at the array row r that block row p
    lies over, as soon as each block reads its array there: the neighbour sums, the features and the reciprocal
    column at row r, the weights at row q and the bias at q. -/
theorem entryMul_block {n' : ℕ} (A X : (⟨2, ![n, 128]⟩ : Shape).Idx → EReal) (inv : (⟨2, ![n, 1]⟩ : Shape).Idx → EReal)
    (Wl Wr : (⟨2, ![o, 128]⟩ : Shape).Idx → EReal) (b : (⟨1, ![o]⟩ : Shape).Idx → EReal)
    (A' X' : (⟨2, ![n', 128]⟩ : Shape).Idx → EReal) (inv' : (⟨2, ![n', 1]⟩ : Shape).Idx → EReal)
    (Wl' Wr' : (⟨2, ![o, 128]⟩ : Shape).Idx → EReal) (b' : (⟨1, ![o]⟩ : Shape).Idx → EReal)
    (r : Fin n) (p : Fin n') (q : Fin o)
    (hA : ∀ k, A' (ix2 p k) = A (ix2 r k)) (hX : ∀ k, X' (ix2 p k) = X (ix2 r k))
    (hinv : inv' (ix2 p (0 : Fin 1)) = inv (ix2 r (0 : Fin 1)))
    (hWl : ∀ k, Wl' (ix2 q k) = Wl (ix2 q k)) (hWr : ∀ k, Wr' (ix2 q k) = Wr (ix2 q k))
    (hb : b' (ix1 q) = b (ix1 q)) :
    entryMul A' X' inv' Wl' Wr' b' p q = entryMul A X inv Wl Wr b r q := by
  unfold entryMul
  rw [hinv, hb]
  simp only [hA, hX, hWl, hWr]

end Sage

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.SagePayload.lean ====
/-
  What each of the two kernel bodies stores, read at an entry (p, q) of its block of 5000 rows.

  Both bodies compute, from the block X of the nodes' features, the block A of neighbour sums, the column inv of
  reciprocal in-degrees, the weights Wl, Wr and the bias b:
      ( (A ∘ inv) · Wlᵀ + b ) + X · Wrᵀ,
  where A ∘ inv scales row p of A by inv(p, 0), and the first body then takes the maximum with 0. On the extended
  reals a change of float format is the identity, a product into a zero accumulator is the plain sum over the
  contracted axis, the column spread over the 128 lanes reads its row's one entry and the bias spread over the
  rows reads its lane's entry: so the stored value at (p, q) is 'Sage.entryMul' of the blocks, over rows p of the
  block and all 128 features k.
-/
import proofs.«123293_j13305808683303_2_alg».proof.Proof.Gen.KernelIdeal.Skeleton
import proofs.«123293_j13305808683303_2_alg».proof.Proof.SageSpec
import proofs.«123293_j13305808683303_2_alg».proof.Proof.LibKeepdims
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Sage

/-- The left operand's row coordinate under the product's index: the output's row. -/
theorem lhsRow0 (j : S5000x128.Idx) (kq : dot_S5000x128_S128x128_S5000x128_1_1_0_0_n_n.contr.Idx) : (dot_S5000x128_S128x128_S5000x128_1_1_0_0_n_n.lhsIdx j kq 0).val = (j 0).val := by
  unfold DotDims.lhsIdx
  rw [dif_neg (show ¬(0 : Fin S5000x128.rank) ∈ dot_S5000x128_S128x128_S5000x128_1_1_0_0_n_n.lhsBatch by decide),
    dif_pos (show (0 : Fin S5000x128.rank) ∈ dot_S5000x128_S128x128_S5000x128_1_1_0_0_n_n.lhsNonContracting by decide)]
  rfl
/-- The right operand's row coordinate under the product's index: the output's column. -/
theorem rhsRow0 (j : S5000x128.Idx) (kq : dot_S5000x128_S128x128_S5000x128_1_1_0_0_n_n.contr.Idx) : (dot_S5000x128_S128x128_S5000x128_1_1_0_0_n_n.rhsIdx j kq 0).val = (j 1).val := by
  unfold DotDims.rhsIdx
  rw [dif_neg (show ¬(0 : Fin S128x128.rank) ∈ dot_S5000x128_S128x128_S5000x128_1_1_0_0_n_n.rhsBatch by decide),
    dif_pos (show (0 : Fin S128x128.rank) ∈ dot_S5000x128_S128x128_S5000x128_1_1_0_0_n_n.rhsNonContracting by decide)]
  rfl

/-- A product of a [5000, 128] block with the transpose of a [128, 128] matrix, accumulated into the zero block,
    read at (p, q): both operands are contracted along their last axis, so the entry is the sum over k of the
    left operand at (p, k) times the right operand at (q, k). -/
theorem mm0_apply (L : FVec Ideal S5000x128 .bf16) (R : FVec Ideal S128x128 .bf16) (p : Fin 5000) (q : Fin 128) :
    matmul dot_S5000x128_S128x128_S5000x128_1_1_0_0_n_n none L R (constant (F := Ideal) S5000x128 .f32 0x00000000#32) (ix2 p q)
      = ∑ k : Fin 128, L (ix2 p k) * R (ix2 q k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k :=
    funext fun a => Fin.ext (by
      match a with
      | ⟨0, _⟩ => exact lhsRow0 _ _
      | ⟨1, _⟩ => exact (dot_S5000x128_S128x128_S5000x128_1_1_0_0_n_n.lhsIdx_val_of_single rfl _ _).trans hk)
  have er : dot_S5000x128_S128x128_S5000x128_1_1_0_0_n_n.rhsIdx (ix2 p q) ((contrEquiv1 dot_S5000x128_S128x128_S5000x128_1_1_0_0_n_n 128 rfl rfl).symm k) = ix2 q k :=
    funext fun a => Fin.ext (by
      match a with
      | ⟨0, _⟩ => exact rhsRow0 _ _
      | ⟨1, _⟩ => exact (dot_S5000x128_S128x128_S5000x128_1_1_0_0_n_n.rhsIdx_val_of_single rfl _ _).trans hk)
  rw [el, er]

/-- The left operand's row coordinate under the product's index: the output's row. -/
theorem lhsRow1 (j : S5000x64.Idx) (kq : dot_S5000x128_S64x128_S5000x64_1_1_0_0_n_n.contr.Idx) : (dot_S5000x128_S64x128_S5000x64_1_1_0_0_n_n.lhsIdx j kq 0).val = (j 0).val := by
  unfold DotDims.lhsIdx
  rw [dif_neg (show ¬(0 : Fin S5000x128.rank) ∈ dot_S5000x128_S64x128_S5000x64_1_1_0_0_n_n.lhsBatch by decide),
    dif_pos (show (0 : Fin S5000x128.rank) ∈ dot_S5000x128_S64x128_S5000x64_1_1_0_0_n_n.lhsNonContracting by decide)]
  rfl
/-- The right operand's row coordinate under the product's index: the output's column. -/
theorem rhsRow1 (j : S5000x64.Idx) (kq : dot_S5000x128_S64x128_S5000x64_1_1_0_0_n_n.contr.Idx) : (dot_S5000x128_S64x128_S5000x64_1_1_0_0_n_n.rhsIdx j kq 0).val = (j 1).val := by
  unfold DotDims.rhsIdx
  rw [dif_neg (show ¬(0 : Fin S64x128.rank) ∈ dot_S5000x128_S64x128_S5000x64_1_1_0_0_n_n.rhsBatch by decide),
    dif_pos (show (0 : Fin S64x128.rank) ∈ dot_S5000x128_S64x128_S5000x64_1_1_0_0_n_n.rhsNonContracting by decide)]
  rfl

/-- A product of a [5000, 128] block with the transpose of a [64, 128] matrix, accumulated into the zero block,
    read at (p, q): both operands are contracted along their last axis, so the entry is the sum over k of the
    left operand at (p, k) times the right operand at (q, k). -/
theorem mm1_apply (L : FVec Ideal S5000x128 .bf16) (R : FVec Ideal S64x128 .bf16) (p : Fin 5000) (q : Fin 64) :
    matmul dot_S5000x128_S64x128_S5000x64_1_1_0_0_n_n none L R (constant (F := Ideal) S5000x64 .f32 0x00000000#32) (ix2 p q)
      = ∑ k : Fin 128, L (ix2 p k) * R (ix2 q k) := by
  simp only [matmul]
  rw [Ideal.matmul_constant_zero_apply, ← Equiv.sum_comp (contrEquiv1 dot_S5000x128_S64x128_S5000x64_1_1_0_0_n_n 128 rfl rfl).symm]
  refine Finset.sum_congr rfl fun k _ => ?_
  have hk := contrEquiv1_symm_val dot_S5000x128_S64x128_S5000x64_1_1_0_0_n_n 128 rfl rfl k
  have el : dot_S5000x128_S64x128_S5000x64_1_1_0_0_n_n.lhsIdx (ix2 p q) ((contrEquiv1 dot_S5000x128_S64x128_S5000x64_1_1_0_0_n_n 128 rfl rfl).symm k) = ix2 p k :=
    funext fun a => Fin.ext (by
      match a with
      | ⟨0, _⟩ => exact lhsRow1 _ _
      | ⟨1, _⟩ => exact (dot_S5000x128_S64x128_S5000x64_1_1_0_0_n_n.lhsIdx_val_of_single rfl _ _).trans hk)
  have er : dot_S5000x128_S64x128_S5000x64_1_1_0_0_n_n.rhsIdx (ix2 p q) ((contrEquiv1 dot_S5000x128_S64x128_S5000x64_1_1_0_0_n_n 128 rfl rfl).symm k) = ix2 q k :=
    funext fun a => Fin.ext (by
      match a with
      | ⟨0, _⟩ => exact rhsRow1 _ _
      | ⟨1, _⟩ => exact (dot_S5000x128_S64x128_S5000x64_1_1_0_0_n_n.rhsIdx_val_of_single rfl _ _).trans hk)
  rw [el, er]

/-- The column of reciprocals spread over the lanes and multiplied into the block of neighbour sums, at (p, k). -/
theorem scaled_apply (A : Vec Ideal S5000x128 .f32) (inv : Vec Ideal S5000x1 .f32) (p : Fin 5000) (k : Fin 128) :
    (mulf A (broadcastTo S5000x128 inv broadcasts_S5000x1_S5000x128) : FVec Ideal S5000x128 .f32) (ix2 p k)
      = A (ix2 p k) * inv (ix2 p (0 : Fin 1)) := by
  rw [mulf_apply]
  exact congrArg (A (ix2 p k) * ·) (Keepdims.broadcastTo_a1_ab_apply inv broadcasts_S5000x1_S5000x128 p k)

/-- The bias of 128 entries laid as one row and spread over the 5000 rows, at (p, q). -/
theorem bias0_apply {α : Type} (b : S128.Idx → α) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The bias of 64 entries laid as one row and spread over the 5000 rows, at (p, q). -/
theorem bias1_apply {α : Type} (b : S64.Idx → α) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The first body's stored value at (p, q): the layer's entry of the blocks, clamped below at 0. -/
theorem pay0_apply (X A : Vec Ideal S5000x128 .f32) (inv : Vec Ideal S5000x1 .f32) (Wl Wr : Vec Ideal S128x128 .f32)
    (b : Vec Ideal S128 .f32) (p : Fin 5000) (q : Fin 128) :
    k0_pay1 (F := Ideal) X A inv Wl Wr b (ix2 p q) = max (entryMul A X inv Wl Wr b p q) (Ideal.ofBits .f32 zeroW) := by
  unfold k0_pay1 entryMul
  simp only [maximumf_apply, addf_apply, mm0_apply, truncf_apply, shapeCast_self, scaled_apply, bias0_apply, broadcast_apply]
  rfl

/-- The second body's stored value at (p, q): the layer's entry of the blocks. -/
theorem pay1_apply (X A : Vec Ideal S5000x128 .f32) (inv : Vec Ideal S5000x1 .f32) (Wl Wr : Vec Ideal S64x128 .f32)
    (b : Vec Ideal S64 .f32) (p : Fin 5000) (q : Fin 64) :
    k1_pay1 (F := Ideal) X A inv Wl Wr b (ix2 p q) = entryMul A X inv Wl Wr b p q := by
  unfold k1_pay1 entryMul
  simp only [addf_apply, mm1_apply, truncf_apply, shapeCast_self, scaled_apply, bias1_apply]

end Cert.KernelIdeal.Pay

end
-- ==== Proof.SageLayer0.lean ====
/-
  Layer 1 of the idealized kernel program: what its grid of 20 blocks leaves in its output array.

  The grid runs over 20 blocks of 5000 nodes. At block t the body is given rows 5000·t … 5000·t + 4999 of the
  features, of the neighbour sums and of the reciprocal column, and the whole of the two weight matrices and of
  the bias; it writes rows 5000·t … 5000·t + 4999 of the output. So the value written at block row p, column q
  is the layer's entry for node 5000·t + p and output feature q, computed from the whole arrays, clamped below at 0:
  the written block is a block of ONE function of the arrays as the grid finds them ('layerOut'). The 20 blocks
  tile the 100000 rows (node r lies in block r / 5000), so after the 20 write-backs the output array is that function.
  The arrays as the grid finds them are a parameter V here; the next module says what they hold.
-/
import proofs.«123293_j13305808683303_2_alg».proof.Proof.Gen.KernelIdeal.Frame
import proofs.«123293_j13305808683303_2_alg».proof.Proof.SagePayload
import Idealize.ShloMosaic.Lib.Pipeline.Value

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block each window is at, at grid point t: the three row-blocked inputs and the output are at block row t,
    the weights and the bias at their one block; and the grid has 20 points. -/
theorem blockAt : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ (win0_6.index t (0 : Fin 2) = t.val ∧ win0_6.index t (1 : Fin 2) = 0)
    ∧ t.val < 20 :=
  (by decide +kernel : ∀ t : Fin grid0.N, _)

/-- Every one of the 20 block rows is some grid point's. -/
theorem blockOnto : ∀ b : Fin 20, ∃ t : Fin cfg0.N, win0_6.index t (0 : Fin 2) = b.val ∧ win0_6.index t (1 : Fin 2) = 0 :=
  (by decide +kernel : ∀ b : Fin 20, ∃ t : Fin grid0.N, win0_6.index t (0 : Fin 2) = b.val ∧ win0_6.index t (1 : Fin 2) = 0)

/-- The output array after the grid, as one function of the arrays the grid finds. -/
def layerOut (c : Dev nD) : S100000x128.Idx → EReal := fun i =>
  max (entryMul (n := 100000) (o := 128) (V c main_v22) (V c main_arg0) (V c main_v12) (V c main_arg2) (V c main_arg4) (V c main_arg3) (i 0) (i 1)) (Ideal.ofBits .f32 zeroW)

/-- Block t of the features reads, at (p, k), the features of node 5000·t + p. -/
theorem readX (c : Dev nD) (t : Fin cfg0.N) (ht : t.val < 20) (p : Fin 5000) (k : Fin 128) :
    iblk0 V c 0 t (ix2 p k) = V c main_arg0 (ix2 (⟨t.val * 5000 + p.val, by have := p.isLt; omega⟩ : Fin 100000) k) := by
  obtain ⟨⟨e0, e1⟩, -⟩ := blockAt t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block t of the neighbour sums reads, at (p, k), the sums of node 5000·t + p. -/
theorem readA (c : Dev nD) (t : Fin cfg0.N) (ht : t.val < 20) (p : Fin 5000) (k : Fin 128) :
    iblk0 V c 1 t (ix2 p k) = V c main_v22 (ix2 (⟨t.val * 5000 + p.val, by have := p.isLt; omega⟩ : Fin 100000) k) := by
  obtain ⟨-, ⟨e0, e1⟩, -⟩ := blockAt t
  show V c main_v22 (((cfg0.win 1).blk t).view.emb (ix2 p k)) = _
  refine congrArg (V c main_v22) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Block t of the reciprocal column reads, at (p, 0), the reciprocal of node 5000·t + p. -/
theorem readInv (c : Dev nD) (t : Fin cfg0.N) (ht : t.val < 20) (p : Fin 5000) :
    iblk0 V c 2 t (ix2 p (0 : Fin 1)) = V c main_v12 (ix2 (⟨t.val * 5000 + p.val, by have := p.isLt; omega⟩ : Fin 100000) (0 : Fin 1)) := by
  obtain ⟨-, -, ⟨e0, e1⟩, -⟩ := blockAt t
  show V c main_v12 (((cfg0.win 2).blk t).view.emb (ix2 p (0 : Fin 1))) = _
  refine congrArg (V c main_v12) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- The one block of the first weight matrix is the matrix. -/
theorem readWl (c : Dev nD) (t : Fin cfg0.N) (q : Fin 128) (k : Fin 128) :
    iblk0 V c 3 t (ix2 q k) = V c main_arg2 (ix2 q k) := by
  obtain ⟨-, -, -, ⟨e0, e1⟩, -⟩ := blockAt t
  show V c main_arg2 (((cfg0.win 3).blk t).view.emb (ix2 q k)) = _
  refine congrArg (V c main_arg2) (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

/-- The one block of the bias is the bias. -/
theorem readB (c : Dev nD) (t : Fin cfg0.N) (q : Fin 128) :
    iblk0 V c 4 t (ix1 q) = V c main_arg3 (ix1 q) := by
  obtain ⟨-, -, -, -, e0, -⟩ := blockAt t
  show V c main_arg3 (((cfg0.win 4).blk t).view.emb (ix1 q)) = _
  refine congrArg (V c main_arg3) (funext fun a => Fin.ext ?_)
  match a with
  | ⟨0, _⟩ => show win0_4.index t (0 : Fin 1) * 128 + 1 * q.val = q.val; omega

/-- The one block of the second weight matrix is the matrix. -/
theorem readWr (c : Dev nD) (t : Fin cfg0.N) (q : Fin 128) (k : Fin 128) :
    iblk0 V c 5 t (ix2 q k) = V c main_arg4 (ix2 q k) := by
  obtain ⟨-, -, -, -, -, ⟨e0, e1⟩, -⟩ := blockAt t
  show V c main_arg4 (((cfg0.win 5).blk t).view.emb (ix2 q k)) = _
  refine congrArg (V c main_arg4) (funext fun a => Fin.ext ?_)
  match a with
  | ⟨0, _⟩ => show win0_5.index t (0 : Fin 2) * 128 + 1 * q.val = q.val; omega
  | ⟨1, _⟩ => show win0_5.index t (1 : Fin 2) * 128 + 1 * k.val = k.val; omega

/-- What grid point t writes back is block t of 'layerOut'. -/
theorem flushed_eq (c : Dev nD) (t : Fin cfg0.N) :
    (dat0 V c).flushed 6 t = ((cfg0.win 6).blk t).view.read (Elt Ideal) (layerOut V c) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S5000x1) zeros2,
    View.ld_unit_zero (S := S128x128) zeros2, View.ld_unit_zero (S := S128) zeros1]
  obtain ⟨-, -, -, -, -, -, ⟨e0, e1⟩, ht⟩ := blockAt t
  funext j
  obtain ⟨p, q, rfl⟩ : ∃ (p : Fin 5000) (q : Fin 128), j = ix2 p q := ⟨j 0, j 1, eq_ix2 j⟩
  have hrow : ((cfg0.win 6).blk t).view.emb (ix2 p q)
      = ix2 (⟨t.val * 5000 + p.val, by have := p.isLt; omega⟩ : Fin 100000) q :=
    funext fun a => Fin.ext (by
      match a with
      | ⟨0, _⟩ => show win0_6.index t (0 : Fin 2) * 5000 + 1 * p.val = t.val * 5000 + p.val; omega
      | ⟨1, _⟩ => show win0_6.index t (1 : Fin 2) * 128 + 1 * q.val = q.val; omega)
  show k0_pay1 (iblk0 V c 0 t) (iblk0 V c 1 t) (iblk0 V c 2 t) (iblk0 V c 3 t) (iblk0 V c 5 t) (iblk0 V c 4 t) (ix2 p q)
      = layerOut V c (((cfg0.win 6).blk t).view.emb (ix2 p q))
  rw [hrow]
  refine (Pay.pay0_apply (iblk0 V c 0 t) (iblk0 V c 1 t) (iblk0 V c 2 t) (iblk0 V c 3 t) (iblk0 V c 5 t) (iblk0 V c 4 t) p q).trans ?_
  show _ = max (entryMul (n := 100000) (o := 128) (V c main_v22) (V c main_arg0) (V c main_v12) (V c main_arg2) (V c main_arg4) (V c main_arg3) (⟨t.val * 5000 + p.val, by have := p.isLt; omega⟩ : Fin 100000) q) (Ideal.ofBits .f32 zeroW)
  refine congrArg (max · (Ideal.ofBits .f32 zeroW)) ?_
  exact entryMul_block (n := 100000) (o := 128) (n' := 5000) (V c main_v22) (V c main_arg0) (V c main_v12) (V c main_arg2) (V c main_arg4) (V c main_arg3)
    (iblk0 V c 1 t) (iblk0 V c 0 t) (iblk0 V c 2 t) (iblk0 V c 3 t) (iblk0 V c 5 t) (iblk0 V c 4 t)
    (⟨t.val * 5000 + p.val, by have := p.isLt; omega⟩ : Fin 100000) p q
    (fun k => readA V c t ht p k) (fun k => readX V c t ht p k) (readInv V c t ht p)
    (fun k => readWl V c t q k) (fun k => readWr V c t q k) (readB V c t q)

/-- An index of the output array is in grid point t's block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23).slice (win0_6.rect t)).set ↔ _
  rw [View.set_slice_whole, Rect.mem_set_unit]
  exact Iff.rfl

/-- Every index of the output array is in some grid point's block: node r is in block r / 5000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, e0, e1⟩ := blockOnto ⟨(i 0).val / 5000, by omega⟩
  have e0' : win0_6.index t (0 : Fin 2) = (i 0).val / 5000 := e0
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the grid's 20 write-backs is 'layerOut' of the arrays the grid found. -/
theorem final (c : Dev nD) : (dat0 V c).arrAt 6 cfg0.N = layerOut V c :=
  (dat0 V c).arrAt_eq_of_cover 6 (layerOut V c) (fun t _ => flushed_eq V c t) cover

end Cert.KernelIdeal.Layer0

end
-- ==== Proof.SageLayer1.lean ====
/-
  Layer 2 of the idealized kernel program: what its grid of 20 blocks leaves in its output array.

  The grid runs over 20 blocks of 5000 nodes. At block t the body is given rows 5000·t … 5000·t + 4999 of the
  features, of the neighbour sums and of the reciprocal column, and the whole of the two weight matrices and of
  the bias; it writes rows 5000·t … 5000·t + 4999 of the output. So the value written at block row p, column q
  is the layer's entry for node 5000·t + p and output feature q, computed from the whole arrays:
  the written block is a block of ONE function of the arrays as the grid finds them ('layerOut'). The 20 blocks
  tile the 100000 rows (node r lies in block r / 5000), so after the 20 write-backs the output array is that function.
  The arrays as the grid finds them are a parameter V here; the next module says what they hold.
-/
import proofs.«123293_j13305808683303_2_alg».proof.Proof.Gen.KernelIdeal.Frame
import proofs.«123293_j13305808683303_2_alg».proof.Proof.SagePayload
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem Sage
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block each window is at, at grid point t: the three row-blocked inputs and the output are at block row t,
    the weights and the bias at their one block; and the grid has 20 points. -/
theorem blockAt : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ (win1_6.index t (0 : Fin 2) = t.val ∧ win1_6.index t (1 : Fin 2) = 0)
    ∧ t.val < 20 :=
  (by decide +kernel : ∀ t : Fin grid1.N, _)

/-- Every one of the 20 block rows is some grid point's. -/
theorem blockOnto : ∀ b : Fin 20, ∃ t : Fin cfg1.N, win1_6.index t (0 : Fin 2) = b.val ∧ win1_6.index t (1 : Fin 2) = 0 :=
  (by decide +kernel : ∀ b : Fin 20, ∃ t : Fin grid1.N, win1_6.index t (0 : Fin 2) = b.val ∧ win1_6.index t (1 : Fin 2) = 0)

/-- The output array after the grid, as one function of the arrays the grid finds. -/
def layerOut (c : Dev nD) : S100000x64.Idx → EReal := fun i =>
  entryMul (n := 100000) (o := 64) (V c main_v33) (V c main_v23) (V c main_v12) (V c main_arg5) (V c main_arg7) (V c main_arg6) (i 0) (i 1)

/-- Block t of the features reads, at (p, k), the features of node 5000·t + p. -/
theorem readX (c : Dev nD) (t : Fin cfg1.N) (ht : t.val < 20) (p : Fin 5000) (k : Fin 128) :
    iblk1 V c 0 t (ix2 p k) = V c main_v23 (ix2 (⟨t.val * 5000 + p.val, by have := p.isLt; omega⟩ : Fin 100000) k) := by
  obtain ⟨⟨e0, e1⟩, -⟩ := blockAt t
  show V c main_v23 (((cfg1.win 0).blk t).view.emb (ix2 p k)) = _
  refine congrArg (V c main_v23) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Block t of the neighbour sums reads, at (p, k), the sums of node 5000·t + p. -/
theorem readA (c : Dev nD) (t : Fin cfg1.N) (ht : t.val < 20) (p : Fin 5000) (k : Fin 128) :
    iblk1 V c 1 t (ix2 p k) = V c main_v33 (ix2 (⟨t.val * 5000 + p.val, by have := p.isLt; omega⟩ : Fin 100000) k) := by
  obtain ⟨-, ⟨e0, e1⟩, -⟩ := blockAt t
  show V c main_v33 (((cfg1.win 1).blk t).view.emb (ix2 p k)) = _
  refine congrArg (V c main_v33) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Block t of the reciprocal column reads, at (p, 0), the reciprocal of node 5000·t + p. -/
theorem readInv (c : Dev nD) (t : Fin cfg1.N) (ht : t.val < 20) (p : Fin 5000) :
    iblk1 V c 2 t (ix2 p (0 : Fin 1)) = V c main_v12 (ix2 (⟨t.val * 5000 + p.val, by have := p.isLt; omega⟩ : Fin 100000) (0 : Fin 1)) := by
  obtain ⟨-, -, ⟨e0, e1⟩, -⟩ := blockAt t
  show V c main_v12 (((cfg1.win 2).blk t).view.emb (ix2 p (0 : Fin 1))) = _
  refine congrArg (V c main_v12) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- The one block of the first weight matrix is the matrix. -/
theorem readWl (c : Dev nD) (t : Fin cfg1.N) (q : Fin 64) (k : Fin 128) :
    iblk1 V c 3 t (ix2 q k) = V c main_arg5 (ix2 q k) := by
  obtain ⟨-, -, -, ⟨e0, e1⟩, -⟩ := blockAt t
  show V c main_arg5 (((cfg1.win 3).blk t).view.emb (ix2 q k)) = _
  refine congrArg (V c main_arg5) (funext fun a => Fin.ext ?_)
  match a with
  | ⟨0, _⟩ => show win1_3.index t (0 : Fin 2) * 64 + 1 * q.val = q.val; omega
  | ⟨1, _⟩ => show win1_3.index t (1 : Fin 2) * 128 + 1 * k.val = k.val; omega

/-- The one block of the bias is the bias. -/
theorem readB (c : Dev nD) (t : Fin cfg1.N) (q : Fin 64) :
    iblk1 V c 4 t (ix1 q) = V c main_arg6 (ix1 q) := by
  obtain ⟨-, -, -, -, e0, -⟩ := blockAt t
  show V c main_arg6 (((cfg1.win 4).blk t).view.emb (ix1 q)) = _
  refine congrArg (V c main_arg6) (funext fun a => Fin.ext ?_)
  match a with
  | ⟨0, _⟩ => show win1_4.index t (0 : Fin 1) * 64 + 1 * q.val = q.val; omega

/-- The one block of the second weight matrix is the matrix. -/
theorem readWr (c : Dev nD) (t : Fin cfg1.N) (q : Fin 64) (k : Fin 128) :
    iblk1 V c 5 t (ix2 q k) = V c main_arg7 (ix2 q k) := by
  obtain ⟨-, -, -, -, -, ⟨e0, e1⟩, -⟩ := blockAt t
  show V c main_arg7 (((cfg1.win 5).blk t).view.emb (ix2 q k)) = _
  refine congrArg (V c main_arg7) (funext fun a => Fin.ext ?_)
  match a with
  | ⟨0, _⟩ => show win1_5.index t (0 : Fin 2) * 64 + 1 * q.val = q.val; omega
  | ⟨1, _⟩ => show win1_5.index t (1 : Fin 2) * 128 + 1 * k.val = k.val; omega

/-- What grid point t writes back is block t of 'layerOut'. -/
theorem flushed_eq (c : Dev nD) (t : Fin cfg1.N) :
    (dat1 V c).flushed 6 t = ((cfg1.win 6).blk t).view.read (Elt Ideal) (layerOut V c) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S5000x1) zeros2,
    View.ld_unit_zero (S := S64x128) zeros2, View.ld_unit_zero (S := S64) zeros1]
  obtain ⟨-, -, -, -, -, -, ⟨e0, e1⟩, ht⟩ := blockAt t
  funext j
  obtain ⟨p, q, rfl⟩ : ∃ (p : Fin 5000) (q : Fin 64), j = ix2 p q := ⟨j 0, j 1, eq_ix2 j⟩
  have hrow : ((cfg1.win 6).blk t).view.emb (ix2 p q)
      = ix2 (⟨t.val * 5000 + p.val, by have := p.isLt; omega⟩ : Fin 100000) q :=
    funext fun a => Fin.ext (by
      match a with
      | ⟨0, _⟩ => show win1_6.index t (0 : Fin 2) * 5000 + 1 * p.val = t.val * 5000 + p.val; omega
      | ⟨1, _⟩ => show win1_6.index t (1 : Fin 2) * 64 + 1 * q.val = q.val; omega)
  show k1_pay1 (iblk1 V c 0 t) (iblk1 V c 1 t) (iblk1 V c 2 t) (iblk1 V c 3 t) (iblk1 V c 5 t) (iblk1 V c 4 t) (ix2 p q)
      = layerOut V c (((cfg1.win 6).blk t).view.emb (ix2 p q))
  rw [hrow]
  refine (Pay.pay1_apply (iblk1 V c 0 t) (iblk1 V c 1 t) (iblk1 V c 2 t) (iblk1 V c 3 t) (iblk1 V c 5 t) (iblk1 V c 4 t) p q).trans ?_
  show _ = entryMul (n := 100000) (o := 64) (V c main_v33) (V c main_v23) (V c main_v12) (V c main_arg5) (V c main_arg7) (V c main_arg6) (⟨t.val * 5000 + p.val, by have := p.isLt; omega⟩ : Fin 100000) q
  exact entryMul_block (n := 100000) (o := 64) (n' := 5000) (V c main_v33) (V c main_v23) (V c main_v12) (V c main_arg5) (V c main_arg7) (V c main_arg6)
    (iblk1 V c 1 t) (iblk1 V c 0 t) (iblk1 V c 2 t) (iblk1 V c 3 t) (iblk1 V c 5 t) (iblk1 V c 4 t)
    (⟨t.val * 5000 + p.val, by have := p.isLt; omega⟩ : Fin 100000) p q
    (fun k => readA V c t ht p k) (fun k => readX V c t ht p k) (readInv V c t ht p)
    (fun k => readWl V c t q k) (fun k => readWr V c t q k) (readB V c t q)

/-- An index of the output array is in grid point t's block iff each coordinate is in the block's range. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v34).slice (win1_6.rect t)).set ↔ _
  rw [View.set_slice_whole, Rect.mem_set_unit]
  exact Iff.rfl

/-- Every index of the output array is in some grid point's block: node r is in block r / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, e0, e1⟩ := blockOnto ⟨(i 0).val / 5000, by omega⟩
  have e0' : win1_6.index t (0 : Fin 2) = (i 0).val / 5000 := e0
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after the grid's 20 write-backs is 'layerOut' of the arrays the grid found. -/
theorem final (c : Dev nD) : (dat1 V c).arrAt 6 cfg1.N = layerOut V c :=
  (dat1 V c).arrAt_eq_of_cover 6 (layerOut V c) (fun t _ => flushed_eq V c t) cover

end Cert.KernelIdeal.Layer1

end
-- ==== Proof.SageGraph.lean ====
/-
  The part of the computation that both programs leave to the host, named once.

  The edge list e has two rows of 1,600,000 node numbers: row 0 the source of each edge and row 1 its target.
    • 'srcCol e' is the column of sources, a negative number counted from the end (100000 added to it);
    • 'dstCol e' is the column of targets;
    • 'agg e y' gathers, for each edge, the row of y at the edge's source, and adds the gathered rows into a zero
      [100000, 128] array at the edges' targets: row r of the result is the sum of y's rows over the edges into r;
    • 'cnt e' adds a 1 per edge into a zero vector at the edges' targets: the in-degree of each node;
    • 'deg e' is the in-degree clamped below at 1, and 'invCol e' the column of the reciprocals 1 / deg.
  The gather and the two accumulating scatters are never opened: whatever they compute, both programs apply them
  to the same edge list, and the only facts used about the rest are what the clamp and the reciprocal column
  hold at a node r: deg(r) = max(cnt(r), 1) and invCol(r, 0) = 1 / deg(r).
-/
import proofs.«123293_j13305808683303_2_alg».proof.Proof.Gen.KernelIdeal
import proofs.«123293_j13305808683303_2_alg».proof.Proof.SageSpec
import Idealize.ShloMosaic.Lib.Pipeline.Value
import Idealize.ShloMosaic.Lib.ValueIdx

noncomputable section

namespace Cert.KernelIdeal.Graph

open Cert.KernelIdeal Cert.KernelIdeal.Facts₀ Idealize.ShloMosaic Idealize.ShloMosaic.ValueIdx Sage

variable {F : FTy → Type} [FloatOps F]

/-- The sources of the edges: row 0 of the edge list. -/
def srcRow (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The targets of the edges: row 1 of the edge list. -/
def dstRow (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The sources as a column, a negative source s read as 100000 + s. -/
def srcCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) e) (broadcastInDim S1600000 ![] bcast_S_S1600000 (constantI S_ 32 0#32)))
      (addi (srcRow (F := F) e) (broadcastInDim S1600000 ![] bcast_S_S1600000 (constantI S_ 32 100000#32)))
      (srcRow (F := F) e))

/-- The targets as a column. -/
def dstCol (e : (⟨S2x1600000, .i32⟩ : BufTy).Contents (Elt F)) : (⟨S1600000x1, .i32⟩ : BufTy).Contents (Elt F) :=
  broadcastInDim S1600000x1 ![0] bcast_S1600000_S1600000x1_0 (dstRow (F := F) e)

/-- Row r of the result: the sum, over the edges into node r, of the row of y at the edge's source. -/
def agg (e : (⟨S2x1600000, .i32⟩ : BufTy).Contents (Elt F)) (y : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (dstCol (F := F) e)
    (Host.gather gather_S100000x128_S1600000x1_S1600000x128_1_0_n_n_0_1_1128 y (srcCol (F := F) e))

/-- The number of edges into each node. -/
def cnt (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (dstCol (F := F) e)
    (broadcastInDim S1600000 ![] bcast_S_S1600000 (constant S_ .f32 0x3F800000#32))

/-- The number of edges into each node, clamped below at 1. -/
def deg (e : (⟨S2x1600000, .i32⟩ : BufTy).Contents (Elt F)) : (⟨S100000, .f32⟩ : BufTy).Contents (Elt F) :=
  maximumf (cnt (F := F) e) (broadcastInDim S100000 ![] bcast_S_S100000 (constant S_ .f32 0x3F800000#32))

/-- The column of the reciprocals of the clamped in-degrees. -/
def invCol (e : (⟨S2x1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32)) (deg (F := F) e))

/-- A number spread over the 100000 nodes reads that number at every node. -/
theorem splat_apply (w : BitVec 32) (j : S100000.Idx) :
    broadcastInDim S100000 ![] bcast_S_S100000 (constant (F := Ideal) S_ .f32 w) j = Ideal.ofBits .f32 w :=
  (broadcastInDim_apply _ bcast_S_S100000 (constant (F := Ideal) S_ .f32 w) j ix0 (fun a => a.elim0)).trans rfl

/-- The host's quotient of two arrays reads, at an index, the quotient of the two entries. -/
theorem hostDivf_apply {s : Shape} (a b : FVec Ideal s .f32) (i : s.Idx) :
    Host.divf (F := Ideal) a b i = Ideal.div (a i) (b i) := rfl

/-- The clamped in-degree of node r is the larger of its in-degree and 1. -/
theorem deg_apply (e : (⟨S2x1600000, .i32⟩ : BufTy).Contents (Elt Ideal)) (r : Fin 100000) :
    deg (F := Ideal) e (ix1 r) = max (cnt (F := Ideal) e (ix1 r)) (Ideal.ofBits .f32 oneW) := by
  unfold deg
  rw [maximumf_apply, splat_apply]

/-- The reciprocal column holds, in row r, the quotient of 1 by the clamped in-degree of node r. -/
theorem invCol_apply (e : (⟨S2x1600000, .i32⟩ : BufTy).Contents (Elt Ideal)) (r : Fin 100000) :
    invCol (F := Ideal) e (ix2 r (0 : Fin 1)) = Ideal.div (Ideal.ofBits .f32 oneW) (deg (F := Ideal) e (ix1 r)) := by
  unfold invCol
  refine (broadcastInDim_apply _ bcast_S100000_S100000x1_0 _ (ix2 r (0 : Fin 1)) (ix1 r) (fun a => match a with
    | ⟨0, _⟩ => by show r.val = if (100000 : Nat) = 1 then 0 else r.val; rw [if_neg (by decide)])).trans ?_
  rw [hostDivf_apply, splat_apply]

/-- The hidden features, one function of the arguments: for node r and feature q, the first layer's entry over
    the neighbour sums of the input features x, clamped below at 0. -/
def hiddenOf (e : (⟨S2x1600000, .i32⟩ : BufTy).Contents (Elt Ideal)) (x : S100000x128.Idx → EReal)
    (W1l : S128x128.Idx → EReal) (b1 : S128.Idx → EReal) (W1r : S128x128.Idx → EReal) : S100000x128.Idx → EReal :=
  fun i => max (entryDiv (n := 100000) (o := 128) (agg (F := Ideal) e x) x (deg (F := Ideal) e) W1l W1r b1 (i 0) (i 1))
    (Ideal.ofBits .f32 zeroW)

/-- The result, one function of the arguments: for node r and output q, the second layer's entry over the hidden
    features and over their neighbour sums. -/
def outOf (e : (⟨S2x1600000, .i32⟩ : BufTy).Contents (Elt Ideal)) (x : S100000x128.Idx → EReal)
    (W1l : S128x128.Idx → EReal) (b1 : S128.Idx → EReal) (W1r : S128x128.Idx → EReal)
    (W2l : S64x128.Idx → EReal) (b2 : S64.Idx → EReal) (W2r : S64x128.Idx → EReal) : S100000x64.Idx → EReal :=
  fun i => entryDiv (n := 100000) (o := 64) (agg (F := Ideal) e (hiddenOf e x W1l b1 W1r)) (hiddenOf e x W1l b1 W1r)
    (deg (F := Ideal) e) W2l W2r b2 (i 0) (i 1)

/-- With the reciprocal column and the clamped in-degree of one edge list, the product form of a layer's entry is
    its quotient form. -/
theorem entryMul_invCol {o : ℕ} (e : (⟨S2x1600000, .i32⟩ : BufTy).Contents (Elt Ideal))
    (A X : (⟨2, ![100000, 128]⟩ : Shape).Idx → EReal) (Wl Wr : (⟨2, ![o, 128]⟩ : Shape).Idx → EReal)
    (b : (⟨1, ![o]⟩ : Shape).Idx → EReal) (r : Fin 100000) (q : Fin o) :
    entryMul A X (invCol (F := Ideal) e) Wl Wr b r q = entryDiv A X (deg (F := Ideal) e) Wl Wr b r q :=
  entryMul_eq_entryDiv A X (invCol (F := Ideal) e) (deg (F := Ideal) e) (cnt (F := Ideal) e) Wl Wr b r q
    ((invCol_apply e r).trans (by rw [deg_apply])) (deg_apply e r)

end Cert.KernelIdeal.Graph

end
-- ==== Proof.SageFlow.lean ====
/-
  What the two grids find, and the idealized kernel program's result.

  Before the first grid the host computes, from the edge list e and the features x, the neighbour sums 'agg e x'
  and the reciprocal column 'invCol e'; the first grid finds these beside x and the first layer's weights and bias,
  which nothing has written. It leaves the hidden features. Between the grids the host computes the neighbour sums
  of the hidden features with the same edge list; the second grid finds these, the hidden features, the same
  reciprocal column (no one wrote it since) and the second layer's weights and bias. So the result array is the
  second layer's entries over the hidden features and their neighbour sums, with the means taken as products with
  the reciprocal column; and since that column holds 1 / max(count, 1), these are the entries with the means taken
  as quotients by max(count, 1): the function 'Graph.outOf' of the eight arguments.
-/
import proofs.«123293_j13305808683303_2_alg».proof.Proof.SageRun
import proofs.«123293_j13305808683303_2_alg».proof.Proof.SageLayer0
import proofs.«123293_j13305808683303_2_alg».proof.Proof.SageLayer1
import proofs.«123293_j13305808683303_2_alg».proof.Proof.SageGraph
import Idealize.ShloMosaic.Lib.StableHlo.Run

set_option maxRecDepth 16384

noncomputable section

namespace Cert.KernelIdeal.Flow

open Cert.KernelIdeal Cert.KernelIdeal.Gen Cert.KernelIdeal.Facts₀ Idealize.ShloMosaic Idealize.ShloMosaic.TcCoe
open Idealize.ShloMosaic.ValueIdx Idealize.SL.Sem Idealize.ShloMosaic.StableHlo Sage

variable (m : (ℓ : Loc nD τ sig) → Buf (Elt Ideal) ℓ) (ρ : Dev nD → PrngReg)

/-! ## What the first grid finds -/

/-- The features, as launched. -/
theorem found1_x (c : Dev nD) : V1 m ρ c main_arg0 = m ((c : Thread nD τ).loc main_arg0) := by
  dsimp only [V1, W1, W0, hostOps0]
  after_results <;> rfl

set_option maxHeartbeats 2000000 in
/-- The neighbour sums of the features. -/
theorem found1_agg (c : Dev nD) : V1 m ρ c main_v22 = Graph.agg (m ((c : Thread nD τ).loc main_arg1)) (m ((c : Thread nD τ).loc main_arg0)) := by
  dsimp only [V1, W1, W0, hostOps0]
  after_results <;> rfl

/-- The reciprocal column. -/
theorem found1_inv (c : Dev nD) : V1 m ρ c main_v12 = Graph.invCol (m ((c : Thread nD τ).loc main_arg1)) := by
  dsimp only [V1, W1, W0, hostOps0]
  after_results <;> rfl

/-- The first layer's first weight matrix, as launched. -/
theorem found1_Wl (c : Dev nD) : V1 m ρ c main_arg2 = m ((c : Thread nD τ).loc main_arg2) := by
  dsimp only [V1, W1, W0, hostOps0]
  after_results <;> rfl

/-- The first layer's bias, as launched. -/
theorem found1_b (c : Dev nD) : V1 m ρ c main_arg3 = m ((c : Thread nD τ).loc main_arg3) := by
  dsimp only [V1, W1, W0, hostOps0]
  after_results <;> rfl

/-- The first layer's second weight matrix, as launched. -/
theorem found1_Wr (c : Dev nD) : V1 m ρ c main_arg4 = m ((c : Thread nD τ).loc main_arg4) := by
  dsimp only [V1, W1, W0, hostOps0]
  after_results <;> rfl

/-- The edges' sources. -/
theorem found1_src (c : Dev nD) : V1 m ρ c main_v1 = Graph.srcRow (m ((c : Thread nD τ).loc main_arg1)) := by
  dsimp only [V1, W1, W0, hostOps0]
  after_results <;> rfl

/-- The edges' targets. -/
theorem found1_dst (c : Dev nD) : V1 m ρ c main_v3 = Graph.dstRow (m ((c : Thread nD τ).loc main_arg1)) := by
  dsimp only [V1, W1, W0, hostOps0]
  after_results <;> rfl

/-- The hidden features the first grid leaves: the first layer's entries in their quotient form. -/
theorem hidden_eq (c : Dev nD) :
    Layer0.layerOut (V1 m ρ) c
      = Graph.hiddenOf (m ((c : Thread nD τ).loc main_arg1)) (m ((c : Thread nD τ).loc main_arg0)) (m ((c : Thread nD τ).loc main_arg2)) (m ((c : Thread nD τ).loc main_arg3)) (m ((c : Thread nD τ).loc main_arg4)) := by
  funext i
  unfold Layer0.layerOut Graph.hiddenOf
  rw [found1_x, found1_agg, found1_inv, found1_Wl, found1_b, found1_Wr]
  exact congrArg (max · (Ideal.ofBits .f32 zeroW)) (Graph.entryMul_invCol _ _ _ _ _ _ (i 0) (i 1))

/-! ## What the second grid finds -/

/-- A buffer the first grid does not touch holds after it what the first stretch of host operations left. -/
theorem kept2 (c : Dev nD) (b : Ref sig .tc) (hb : ∀ w, Pipeline.arrRef spec0 w ≠ b) :
    W2 m ρ c (Proc.devRef .tc b) = V1 m ρ c b := W2_of_ne m ρ c b hb

/-- The hidden features, where the first grid wrote them. -/
theorem found2_h (c : Dev nD) : V3 m ρ c main_v23 = Layer0.layerOut (V1 m ρ) c := by
  dsimp only [V3, W3, hostOps1]
  after_results
  exact (W2_arr m ρ c 6).trans (Layer0.final (V1 m ρ) c)

/-- The reciprocal column: an input of the first grid, which leaves its inputs as it found them. -/
theorem found2_inv (c : Dev nD) : V3 m ρ c main_v12 = Graph.invCol (m ((c : Thread nD τ).loc main_arg1)) := by
  dsimp only [V3, W3, hostOps1]
  after_results
  exact ((W2_arr m ρ c 2).trans (((dat0 (V1 m ρ) c).arrAt_in 2 rfl _).trans (A_eq0 (V1 m ρ) c 2))).trans (found1_inv m ρ c)

/-- The second layer's first weight matrix, as launched. -/
theorem found2_Wl (c : Dev nD) : V3 m ρ c main_arg5 = m ((c : Thread nD τ).loc main_arg5) := by
  dsimp only [V3, W3, hostOps1]
  after_results
  refine (kept2 m ρ c main_arg5 (by decide)).trans ?_
  dsimp only [V1, W1, W0, hostOps0]
  after_results <;> rfl

/-- The second layer's bias, as launched. -/
theorem found2_b (c : Dev nD) : V3 m ρ c main_arg6 = m ((c : Thread nD τ).loc main_arg6) := by
  dsimp only [V3, W3, hostOps1]
  after_results
  refine (kept2 m ρ c main_arg6 (by decide)).trans ?_
  dsimp only [V1, W1, W0, hostOps0]
  after_results <;> rfl

/-- The second layer's second weight matrix, as launched. -/
theorem found2_Wr (c : Dev nD) : V3 m ρ c main_arg7 = m ((c : Thread nD τ).loc main_arg7) := by
  dsimp only [V3, W3, hostOps1]
  after_results
  refine (kept2 m ρ c main_arg7 (by decide)).trans ?_
  dsimp only [V1, W1, W0, hostOps0]
  after_results <;> rfl

/-- The neighbour sums of the hidden features: the second stretch of host operations gathers and adds the rows of
    the array the first grid wrote, along the edge list's rows that the first stretch cut out. -/
theorem found2_agg (c : Dev nD) :
    V3 m ρ c main_v33 = Graph.agg (m ((c : Thread nD τ).loc main_arg1)) (Layer0.layerOut (V1 m ρ) c) := by
  have hsrc : W2 m ρ c (Proc.devRef .tc main_v1) = Graph.srcRow (m ((c : Thread nD τ).loc main_arg1)) :=
    (kept2 m ρ c main_v1 (by decide)).trans (found1_src m ρ c)
  have hdst : W2 m ρ c (Proc.devRef .tc main_v3) = Graph.dstRow (m ((c : Thread nD τ).loc main_arg1)) :=
    (kept2 m ρ c main_v3 (by decide)).trans (found1_dst m ρ c)
  have hh : W2 m ρ c (Proc.devRef .tc main_v23) = Layer0.layerOut (V1 m ρ) c :=
    (W2_arr m ρ c 6).trans (Layer0.final (V1 m ρ) c)
  show StableHlo.after hostOps1 (W2 m ρ c) (Proc.devRef .tc main_v33) = _
  generalize W2 m ρ c = Wx at hsrc hdst hh ⊢
  dsimp only [hostOps1]
  after_results
  rw [hsrc, hdst, hh]
  rfl

/-! ## The result -/

/-- The array the second grid leaves is 'Graph.outOf' of the eight arguments. -/
theorem result_value (c : Dev nD) :
    W4 m ρ c (Proc.devRef .tc main_v34)
      = Graph.outOf (m ((c : Thread nD τ).loc main_arg1)) (m ((c : Thread nD τ).loc main_arg0)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((Whole.result_eq m ρ c).trans (Layer1.final (V3 m ρ) c)).trans ?_
  funext i
  unfold Layer1.layerOut Graph.outOf
  rw [found2_h, found2_agg, found2_inv, found2_Wl, found2_b, found2_Wr, hidden_eq]
  exact Graph.entryMul_invCol _ _ _ _ _ _ (i 0) (i 1)

end Cert.KernelIdeal.Flow

end
-- ==== Proof.SageRef.lean ====
/-
  The idealized reference read at an entry, and its result as the same function of the arguments.

  The reference computes each layer on the host: the neighbour sums 'agg', divided entry by entry by the clamped
  in-degree spread over the 128 lanes; the product with the transposed first weight matrix; the bias spread over
  the rows; the product of the features with the transposed second weight matrix; and, after the first layer, the
  maximum with 0. Read at node r and output feature q these are, in order: the sum over k of (agg(r, k) / deg(r))
  times Wl(q, k) (a transposed matrix at (k, q) is the matrix at (q, k)); plus b(q); plus the sum over k of
  x(r, k) times Wr(q, k). That is 'Sage.entryDiv'. The gather, the accumulating scatters and the count are the same
  operations of the same edge list as in 'Graph.agg' and 'Graph.deg', so the reference's result is 'Graph.outOf'
  of the eight arguments.
-/
import proofs.«123293_j13305808683303_2_alg».proof.Proof.Gen.ReferenceIdeal.Read
import proofs.«123293_j13305808683303_2_alg».proof.Proof.SageGraph

set_option maxRecDepth 16384

noncomputable section

namespace Cert.RefSide

open Cert.ReferenceIdeal Cert.ReferenceIdeal.Read Cert.KernelIdeal.Graph
open Idealize.ShloMosaic Idealize.ShloMosaic.ValueIdx Sage

/-! ## The host operations both programs share -/

/-- The reference's first aggregation is 'agg' of the features. -/
theorem agg1_ref (x0 : (⟨S100000x128, .f32⟩ : BufTy).Contents (Elt Ideal)) (x1 : (⟨S2x1600000, .i32⟩ : BufTy).Contents (Elt Ideal)) : val_main_v13 (F := Ideal) x0 x1 = agg (F := Ideal) x1 x0 := rfl
/-- The reference's first clamped count is 'deg'. -/
theorem deg1_ref (x1 : (⟨S2x1600000, .i32⟩ : BufTy).Contents (Elt Ideal)) : val_main_v19 (F := Ideal) x1 = deg (F := Ideal) x1 := rfl
/-- The reference's second aggregation is 'agg' of its hidden features. -/
theorem agg2_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v41 (F := Ideal) x0 x1 x2 x3 x4 = agg (F := Ideal) x1 (val_main_v31 (F := Ideal) x0 x1 x2 x3 x4) := rfl
/-- The reference's second clamped count is 'deg'. -/
theorem deg2_ref (x1 : (⟨S2x1600000, .i32⟩ : BufTy).Contents (Elt Ideal)) : val_main_v47 (F := Ideal) x1 = deg (F := Ideal) x1 := rfl

/-! ## Where each operation reads, at an entry (r, q) and a contracted position k -/

/-- The first product's left operand is read at (r, k). -/
theorem l24 (r : Fin 100000) (q k : Fin 128) : lidx_main_v24 (ix2 r q) k = ix2 r k :=
  funext fun a => Fin.ext (by match a with | ⟨0, _⟩ => rfl | ⟨1, _⟩ => rfl)

/-- The first product's right operand is read at (k, q). -/
theorem r24 (r : Fin 100000) (q k : Fin 128) : ridx_main_v24 (ix2 r q) k = ix2 k q :=
  funext fun a => Fin.ext (by match a with | ⟨0, _⟩ => rfl | ⟨1, _⟩ => rfl)

/-- The transposed first weight matrix at (k, q) is the matrix at (q, k). -/
theorem t23 (a' b' : Fin 128) : idx_main_v23 (ix2 a' b') = ix2 b' a' :=
  funext fun a => Fin.ext (by match a with | ⟨0, _⟩ => rfl | ⟨1, _⟩ => rfl)

/-- The in-degree spread over the lanes reads the column at (r, 0). -/
theorem c21 (r : Fin 100000) (k : Fin 128) : idx_main_v21 (ix2 r k) = ix2 r (0 : Fin 1) :=
  funext fun a => Fin.ext (by match a with | ⟨0, _⟩ => rfl | ⟨1, _⟩ => rfl)

/-- The in-degree column reads the vector at r. -/
theorem c20 (r : Fin 100000) (z : Fin 1) : idx_main_v20 (ix2 r z) = ix1 r :=
  funext fun a => Fin.ext (by match a with | ⟨0, _⟩ => rfl)

/-- The bias spread over the rows reads the one row at (0, q). -/
theorem b26 (r : Fin 100000) (q : Fin 128) : idx_main_v26 (ix2 r q) = ix2 (0 : Fin 1) q :=
  funext fun a => Fin.ext (by match a with | ⟨0, _⟩ => rfl | ⟨1, _⟩ => rfl)

/-- The bias row reads the bias at q. -/
theorem b25 (z : Fin 1) (q : Fin 128) : idx_main_v25 (ix2 z q) = ix1 q :=
  funext fun a => Fin.ext (by match a with | ⟨0, _⟩ => rfl)

/-- The second product's left operand is read at (r, k). -/
theorem l29 (r : Fin 100000) (q k : Fin 128) : lidx_main_v29 (ix2 r q) k = ix2 r k :=
  funext fun a => Fin.ext (by match a with | ⟨0, _⟩ => rfl | ⟨1, _⟩ => rfl)

/-- The second product's right operand is read at (k, q). -/
theorem r29 (r : Fin 100000) (q k : Fin 128) : ridx_main_v29 (ix2 r q) k = ix2 k q :=
  funext fun a => Fin.ext (by match a with | ⟨0, _⟩ => rfl | ⟨1, _⟩ => rfl)

/-- The transposed second weight matrix at (k, q) is the matrix at (q, k). -/
theorem t28 (a' b' : Fin 128) : idx_main_v28 (ix2 a' b') = ix2 b' a' :=
  funext fun a => Fin.ext (by match a with | ⟨0, _⟩ => rfl | ⟨1, _⟩ => rfl)

/-- Layer two: the first product's left operand is read at (r, k). -/
theorem l52 (r : Fin 100000) (q : Fin 64) (k : Fin 128) : lidx_main_v52 (ix2 r q) k = ix2 r k :=
  funext fun a => Fin.ext (by match a with | ⟨0, _⟩ => rfl | ⟨1, _⟩ => rfl)

/-- Layer two: the first product's right operand is read at (k, q). -/
theorem r52 (r : Fin 100000) (q : Fin 64) (k : Fin 128) : ridx_main_v52 (ix2 r q) k = ix2 k q :=
  funext fun a => Fin.ext (by match a with | ⟨0, _⟩ => rfl | ⟨1, _⟩ => rfl)

/-- Layer two: the transposed first weight matrix at (k, q) is the matrix at (q, k). -/
theorem t51 (k : Fin 128) (q : Fin 64) : idx_main_v51 (ix2 k q) = ix2 q k :=
  funext fun a => Fin.ext (by match a with | ⟨0, _⟩ => rfl | ⟨1, _⟩ => rfl)

/-- Layer two: the in-degree spread over the lanes reads the column at (r, 0). -/
theorem c49 (r : Fin 100000) (k : Fin 128) : idx_main_v49 (ix2 r k) = ix2 r (0 : Fin 1) :=
  funext fun a => Fin.ext (by match a with | ⟨0, _⟩ => rfl | ⟨1, _⟩ => rfl)

/-- Layer two: the in-degree column reads the vector at r. -/
theorem c48 (r : Fin 100000) (z : Fin 1) : idx_main_v48 (ix2 r z) = ix1 r :=
  funext fun a => Fin.ext (by match a with | ⟨0, _⟩ => rfl)

/-- Layer two: the bias spread over the rows reads the one row at (0, q). -/
theorem b54 (r : Fin 100000) (q : Fin 64) : idx_main_v54 (ix2 r q) = ix2 (0 : Fin 1) q :=
  funext fun a => Fin.ext (by match a with | ⟨0, _⟩ => rfl | ⟨1, _⟩ => rfl)

/-- Layer two: the bias row reads the bias at q. -/
theorem b53 (z : Fin 1) (q : Fin 64) : idx_main_v53 (ix2 z q) = ix1 q :=
  funext fun a => Fin.ext (by match a with | ⟨0, _⟩ => rfl)

/-- Layer two: the second product's left operand is read at (r, k). -/
theorem l57 (r : Fin 100000) (q : Fin 64) (k : Fin 128) : lidx_main_v57 (ix2 r q) k = ix2 r k :=
  funext fun a => Fin.ext (by match a with | ⟨0, _⟩ => rfl | ⟨1, _⟩ => rfl)

/-- Layer two: the second product's right operand is read at (k, q). -/
theorem r57 (r : Fin 100000) (q : Fin 64) (k : Fin 128) : ridx_main_v57 (ix2 r q) k = ix2 k q :=
  funext fun a => Fin.ext (by match a with | ⟨0, _⟩ => rfl | ⟨1, _⟩ => rfl)

/-- Layer two: the transposed second weight matrix at (k, q) is the matrix at (q, k). -/
theorem t56 (k : Fin 128) (q : Fin 64) : idx_main_v56 (ix2 k q) = ix2 q k :=
  funext fun a => Fin.ext (by match a with | ⟨0, _⟩ => rfl | ⟨1, _⟩ => rfl)

/-! ## The two layers -/

/-- The hidden features at (r, q), spelt out. -/
theorem hiddenOf_apply (x1 : (⟨S2x1600000, .i32⟩ : BufTy).Contents (Elt Ideal)) (x : S100000x128.Idx → EReal) (W1l : S128x128.Idx → EReal)
    (b1 : S128.Idx → EReal) (W1r : S128x128.Idx → EReal) (r : Fin 100000) (q : Fin 128) :
    hiddenOf x1 x W1l b1 W1r (ix2 r q)
      = max (entryDiv (n := 100000) (o := 128) (agg (F := Ideal) x1 x) x (deg (F := Ideal) x1) W1l W1r b1 r q)
          (Ideal.ofBits .f32 zeroW) := rfl

/-- The result at (r, q), spelt out. -/
theorem outOf_apply (x1 : (⟨S2x1600000, .i32⟩ : BufTy).Contents (Elt Ideal)) (x : S100000x128.Idx → EReal) (W1l : S128x128.Idx → EReal)
    (b1 : S128.Idx → EReal) (W1r : S128x128.Idx → EReal) (W2l : S64x128.Idx → EReal) (b2 : S64.Idx → EReal)
    (W2r : S64x128.Idx → EReal) (r : Fin 100000) (q : Fin 64) :
    outOf x1 x W1l b1 W1r W2l b2 W2r (ix2 r q)
      = entryDiv (n := 100000) (o := 64) (agg (F := Ideal) x1 (hiddenOf x1 x W1l b1 W1r)) (hiddenOf x1 x W1l b1 W1r)
          (deg (F := Ideal) x1) W2l W2r b2 r q := rfl

/-- The reference's hidden features are 'hiddenOf' of the arguments. -/
theorem hidden_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = hiddenOf x1 x0 x2 x3 x4 := by
  funext j
  obtain ⟨r, q, rfl⟩ : ∃ (r : Fin 100000) (q : Fin 128), j = ix2 r q := ⟨j 0, j 1, eq_ix2 j⟩
  rw [val_main_v31_apply, val_main_v30_apply, val_main_v27_apply, val_main_v24_apply, val_main_v26_apply,
    val_main_v25_apply, val_main_v29_apply, val_main_call0_v0_apply, val_main_call0_cst_apply, hiddenOf_apply]
  unfold entryDiv
  -- the mean's term: (agg(r, k) / deg(r)) · W1l(q, k)
  have e1 : ∀ k : Fin 128,
      val_main_v22 (F := Ideal) x0 x1 (lidx_main_v24 (ix2 r q) k) * val_main_v23 (F := Ideal) x2 (ridx_main_v24 (ix2 r q) k)
        = Ideal.div (agg (F := Ideal) x1 x0 (ix2 r k)) (deg (F := Ideal) x1 (ix1 r)) * x2 (ix2 q k) := fun k => by
    rw [l24, r24, val_main_v22_apply, val_main_v21_apply, c21, val_main_v20_apply, c20, val_main_v23_apply, t23,
      agg1_ref, deg1_ref, Ideal.hostDivf_def]
  -- the bias: b1(q)
  have e2 : x3 (idx_main_v25 (idx_main_v26 (ix2 r q))) = x3 (ix1 q) := by rw [b26, b25]
  -- the node's own term: x(r, k) · W1r(q, k)
  have e3 : ∀ k : Fin 128,
      x0 (lidx_main_v29 (ix2 r q) k) * val_main_v28 (F := Ideal) x4 (ridx_main_v29 (ix2 r q) k)
        = x0 (ix2 r k) * x4 (ix2 q k) := fun k => by
    rw [l29, r29, val_main_v28_apply, t28]
  exact congrArg₂ max
    (congrArg₂ (· + ·) (congrArg₂ (· + ·) (Finset.sum_congr rfl fun k _ => e1 k) e2) (Finset.sum_congr rfl fun k _ => e3 k))
    rfl

/-- The reference's result is 'outOf' of the arguments. -/
theorem out_ref (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) :
    val_main_v58 (F := Ideal) x0 x1 x2 x3 x4 x5 x6 x7 = outOf x1 x0 x2 x3 x4 x5 x6 x7 := by
  funext j
  obtain ⟨r, q, rfl⟩ : ∃ (r : Fin 100000) (q : Fin 64), j = ix2 r q := ⟨j 0, j 1, eq_ix2 j⟩
  rw [val_main_v58_apply, val_main_v55_apply, val_main_v52_apply, val_main_v54_apply, val_main_v53_apply,
    val_main_v57_apply, outOf_apply]
  unfold entryDiv
  -- the mean's term: (agg of the hidden features (r, k) / deg(r)) · W2l(q, k)
  have e1 : ∀ k : Fin 128,
      val_main_v50 (F := Ideal) x0 x1 x2 x3 x4 (lidx_main_v52 (ix2 r q) k) * val_main_v51 (F := Ideal) x5 (ridx_main_v52 (ix2 r q) k)
        = Ideal.div (agg (F := Ideal) x1 (hiddenOf x1 x0 x2 x3 x4) (ix2 r k)) (deg (F := Ideal) x1 (ix1 r)) * x5 (ix2 q k) := fun k => by
    rw [l52, r52, val_main_v50_apply, val_main_v49_apply, c49, val_main_v48_apply, c48, val_main_v51_apply, t51,
      agg2_ref, hidden_ref, deg2_ref, Ideal.hostDivf_def]
  -- the bias: b2(q)
  have e2 : x6 (idx_main_v53 (idx_main_v54 (ix2 r q))) = x6 (ix1 q) := by rw [b54, b53]
  -- the node's own term: hidden(r, k) · W2r(q, k)
  have e3 : ∀ k : Fin 128,
      val_main_v31 (F := Ideal) x0 x1 x2 x3 x4 (lidx_main_v57 (ix2 r q) k) * val_main_v56 (F := Ideal) x7 (ridx_main_v57 (ix2 r q) k)
        = hiddenOf x1 x0 x2 x3 x4 (ix2 r k) * x7 (ix2 q k) := fun k => by
    rw [l57, r57, hidden_ref, val_main_v56_apply, t56]
  exact congrArg₂ (· + ·) (congrArg₂ (· + ·) (Finset.sum_congr rfl fun k _ => e1 k) e2) (Finset.sum_congr rfl fun k _ => e3 k)

end Cert.RefSide

end
-- ==== Proof.lean ====
/-
  Two layers of mean aggregation over a graph: a blocked kernel program against a whole-array reference, equal on
  the extended reals.

  Both programs take node features x (100000 nodes, 128 features), an edge list e (1,600,000 edges: a row of
  sources and a row of targets) and, per layer, two weight matrices and a bias. A layer maps features y to
      ( mean(y) · Wlᵀ + b ) + y · Wrᵀ,
  where row r of mean(y) is the sum of y's rows over the edges into node r, divided by the number of such edges
  clamped below at 1; the first layer's output is clamped below at 0 and fed to the second.

  The two programs differ in two ways only. The kernel program scales the neighbour sums by a precomputed
  reciprocal 1 / max(count, 1) where the reference divides by max(count, 1): on the extended reals these agree for
  every value of the sums, finite or not, because max(count, 1) ≥ 1 is never 0 ('Sage.mul_recip'). And the kernel
  program computes each layer in 20 blocks of 5000 nodes on reduced-precision copies of its operands where the
  reference computes it whole: on the extended reals a change of precision is the identity, and the blocks' rows
  are the whole array's rows. The gather and the accumulating scatters that form the neighbour sums and the counts
  are the same host operations of the same edge list in both programs and are never opened; in particular nothing
  is asked of the edge list's entries, and finiteness of the inputs is not used.

  So both results are ONE function of the eight arguments, 'Graph.outOf': entry (r, q) is the second layer's entry
  over the hidden features and their neighbour sums, the hidden features being the first layer's entries over x
  and its neighbour sums, clamped below at 0.
    • Kernel side: the program's run names the result buffer ('Whole.run'); each grid's output array is its
      layer's entries over the arrays the grid finds ('Layer0.final', 'Layer1.final'); the host operations
      before and between the grids put the neighbour sums and the reciprocal column there ('Flow.result_value').
    • Reference side: its run's composed term, read one operation at a time at an entry, is the same function
      ('RefSide.out_ref').
  The kernel program is its own idealization (the ideal pass rewrote nothing), and each program's frame is its run
  with the result forgotten.
-/
import proofs.«123293_j13305808683303_2_alg».proof.Defs
import proofs.«123293_j13305808683303_2_alg».proof.Proof.Gen.Kernel
import proofs.«123293_j13305808683303_2_alg».proof.Proof.Gen.Kernel.Frame
import proofs.«123293_j13305808683303_2_alg».proof.Proof.Gen.KernelIdeal
import proofs.«123293_j13305808683303_2_alg».proof.Proof.Gen.KernelIdeal.Frame
import proofs.«123293_j13305808683303_2_alg».proof.Proof.Gen.ReferenceIdeal
import proofs.«123293_j13305808683303_2_alg».proof.Proof.Gen.ReferenceIdeal.Run
import proofs.«123293_j13305808683303_2_alg».proof.Proof.Gen.ReferenceIdeal.Read
import proofs.«123293_j13305808683303_2_alg».proof.Proof.Gen.Pre_finite_inputs
import proofs.«123293_j13305808683303_2_alg».proof.Proof.SageFlow
import proofs.«123293_j13305808683303_2_alg».proof.Proof.SageRef
import Idealize.ShloMosaic.Adequacy
import Idealize.ShloMosaic.Init

noncomputable section

namespace Cert.Proof

open Idealize.ShloMosaic Idealize.ShloMosaic.TcCoe Idealize.SL.Sem

/-- The word-level kernel program runs, and leaves its arguments as launched. -/
theorem frame_kernel : Cert.frame_Kernel := fun m ρ _ => Cert.Kernel.Gen.frame m ρ

/-- The idealized kernel program runs, and leaves its arguments as launched. -/
theorem frame_kernelIdeal : Cert.frame_KernelIdeal := fun m ρ _ => Cert.KernelIdeal.Gen.frame m ρ

/-- The idealized reference runs, and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories that agree on the eight arguments both idealized programs run, leave their arguments as
    launched, and end with the same result: 'Graph.outOf' of the arguments. -/
theorem algebraic : Cert.algebraic_KernelIdeal_ReferenceIdeal := by
  intro m ρ m' ρ' _ hagree
  refine ⟨fun c => Cert.KernelIdeal.Graph.outOf (m ((c.tc : Thread Cert.KernelIdeal.nD Cert.KernelIdeal.τ).loc Cert.KernelIdeal.main_arg1)) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Flow.result_value m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, Cert.RefSide.out_ref, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
